-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S8x128x128 : Shape := ⟨3, ![8, 128, 128]⟩
abbrev S8x128 : Shape := ⟨2, ![8, 128]⟩
abbrev S8x1x128 : Shape := ⟨3, ![8, 1, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S8x1x128 : S_.BroadcastsInDim S8x1x128 (![] : Fin 0 → Fin S8x1x128.rank)
  reducesTo_S8x1x128_S_d0_1_2 : S8x1x128.ReducesTo [0, 1, 2] S_

variable [Facts]

def fn_part1 {F : FTy → Type} [FloatOps F] (main_v13 : IVec S_ 1) (main_v16 : IVec S8x1x128 1) : IVec S_ 1 :=
  let main_c_5 : IVec S_ 1 := constantI S_ 1 1#1
  let main_v17 : IVec S_ 1 := (fun x v => Host.reduce IntOp.andi x v reducesTo_S8x1x128_S_d0_1_2 h_S_) main_v16 main_c_5
  let main_v18 : IVec S_ 1 := andi main_v13 main_v17
  main_v18

def fn {F : FTy → Type} [FloatOps F] (main_arg0 : FVec F S32x2048x128 .f32) (main_arg1 : FVec F S8x128x128 .f32) (main_arg2 : FVec F S8x128 .f32) (main_arg3 : FVec F S8x1x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x1x128 .f32 := Host.absf main_arg3
  let main_cst_4 : FVec F S_ .f32 := constant S_ .f32 0x7F800000#32
  let main_v15 : FVec F S8x1x128 .f32 := broadcastInDim S8x1x128 ![] bcast_S_S8x1x128 main_cst_4
  let main_v16 : IVec S8x1x128 1 := cmpf .olt main_v14 main_v15
  fn_part1 (F := F) main_v13 main_v16
-- ==== Kernel.lean ====
abbrev S32x2048x128 : Shape := ⟨3, ![32, 2048, 128]⟩
abbrev S8x128x128 : Shape := ⟨3, ![8, 128, 128]⟩
abbrev S8x128 : Shape := ⟨2, ![8, 128]⟩
abbrev S8x1x128 : Shape := ⟨3, ![8, 1, 128]⟩
abbrev S65536x128 : Shape := ⟨2, ![65536, 128]⟩
abbrev S128x8x128 : Shape := ⟨3, ![128, 8, 128]⟩
abbrev S128x1024 : Shape := ⟨2, ![128, 1024]⟩
abbrev S1x1024 : Shape := ⟨2, ![1, 1024]⟩
abbrev S2048x128 : Shape := ⟨2, ![2048, 128]⟩
abbrev S1024 : Shape := ⟨1, ![1024]⟩
abbrev S2048x1024 : Shape := ⟨2, ![2048, 1024]⟩
abbrev S2048 : Shape := ⟨1, ![2048]⟩
abbrev S2048x1 : Shape := ⟨2, ![2048, 1]⟩
abbrev S8 : Shape := ⟨1, ![8]⟩
abbrev S2048x8 : Shape := ⟨2, ![2048, 8]⟩
abbrev S1x8 : Shape := ⟨2, ![1, 8]⟩

abbrev nBuf : Space → Nat
  | .hbm => 12
  | .vmem => 7
  | .smem => 0
  | _ => 0

abbrev bufTy : (tb : Table) → Fin (tcTables nBuf tb) → BufTy
  | .hbm, ⟨0, _⟩ => ⟨S32x2048x128, .f32⟩
  | .hbm, ⟨1, _⟩ => ⟨S8x128x128, .f32⟩
  | .hbm, ⟨2, _⟩ => ⟨S8x128, .f32⟩
  | .hbm, ⟨3, _⟩ => ⟨S8x1x128, .f32⟩
  | .hbm, ⟨4, _⟩ => ⟨S65536x128, .f32⟩
  | .hbm, ⟨5, _⟩ => ⟨S128x8x128, .f32⟩
  | .hbm, ⟨6, _⟩ => ⟨S128x1024, .f32⟩
  | .hbm, ⟨7, _⟩ => ⟨S128x1024, .bf16⟩
  | .hbm, ⟨8, _⟩ => ⟨S1x1024, .f32⟩
  | .hbm, ⟨9, _⟩ => ⟨S8x128, .f32⟩
  | .hbm, ⟨10, _⟩ => ⟨S65536x128, .f32⟩
  | .hbm, ⟨11, _⟩ => ⟨S32x2048x128, .f32⟩
  | .local _ .vmem, ⟨0, _⟩ => ⟨S2048x128, .f32⟩
  | .local _ .vmem, ⟨1, _⟩ => ⟨S2048x128, .f32⟩
  | .local _ .vmem, ⟨2, _⟩ => ⟨S128x1024, .bf16⟩
  | .local _ .vmem, ⟨3, _⟩ => ⟨S1x1024, .f32⟩
  | .local _ .vmem, ⟨4, _⟩ => ⟨S8x128, .f32⟩
  | .local _ .vmem, ⟨5, _⟩ => ⟨S2048x128, .f32⟩
  | .local _ .vmem, ⟨6, _⟩ => ⟨S2048x128, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x2048x128_S65536x128 : S32x2048x128.ShapeCasts S65536x128
  transposes_S8x128x128_S128x8x128_2_0_1 : S8x128x128.Transposes [2, 0, 1] S128x8x128
  shapeCasts_S128x8x128_S128x1024 : S128x8x128.ShapeCasts S128x1024
  bitsLt_bf16_f32 : FTy.bits .bf16 < FTy.bits .f32
  shapeCasts_S8x128_S1x1024 : S8x128.ShapeCasts S1x1024
  shapeCasts_S8x1x128_S8x128 : S8x1x128.ShapeCasts S8x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S1024_S1x1024 : S1024.ShapeCasts S1x1024
  broadcasts_S1x1024_S2048x1024 : S1x1024.Broadcasts S2048x1024
  reduces_S2048x128_S2048 : S2048x128.Reduces [1] S2048
  shapeCasts_S2048_S2048x1 : S2048.ShapeCasts S2048x1
  reduces_S8x128_S8 : S8x128.Reduces [1] S8
  shapeCasts_S8_S1x8 : S8.ShapeCasts S1x8
  broadcasts_S2048x1_S2048x8 : S2048x1.Broadcasts S2048x8
  broadcasts_S1x8_S2048x8 : S1x8.Broadcasts S2048x8
  reduces_S2048x8_S2048 : S2048x8.Reduces [1] S2048
  slices_S2048x1024_o0_0_S2048x128 : S2048x1024.Slices ![0, 0] S2048x128
  slices_S2048x8_o0_0_S2048x1 : S2048x8.Slices ![0, 0] S2048x1
  broadcasts_S2048x1_S2048x128 : S2048x1.Broadcasts S2048x128
  slices_S2048x1024_o0_128_S2048x128 : S2048x1024.Slices ![0, 128] S2048x128
  slices_S2048x8_o0_1_S2048x1 : S2048x8.Slices ![0, 1] S2048x1
  slices_S2048x1024_o0_256_S2048x128 : S2048x1024.Slices ![0, 256] S2048x128
  slices_S2048x8_o0_2_S2048x1 : S2048x8.Slices ![0, 2] S2048x1
  slices_S2048x1024_o0_384_S2048x128 : S2048x1024.Slices ![0, 384] S2048x128
  slices_S2048x8_o0_3_S2048x1 : S2048x8.Slices ![0, 3] S2048x1
  slices_S2048x1024_o0_512_S2048x128 : S2048x1024.Slices ![0, 512] S2048x128
  slices_S2048x8_o0_4_S2048x1 : S2048x8.Slices ![0, 4] S2048x1
  slices_S2048x1024_o0_640_S2048x128 : S2048x1024.Slices ![0, 640] S2048x128
  slices_S2048x8_o0_5_S2048x1 : S2048x8.Slices ![0, 5] S2048x1
  slices_S2048x1024_o0_768_S2048x128 : S2048x1024.Slices ![0, 768] S2048x128
  slices_S2048x8_o0_6_S2048x1 : S2048x8.Slices ![0, 6] S2048x1
  slices_S2048x1024_o0_896_S2048x128 : S2048x1024.Slices ![0, 896] S2048x128
  slices_S2048x8_o0_7_S2048x1 : S2048x8.Slices ![0, 7] S2048x1
  shapeCasts_S65536x128_S32x2048x128 : S65536x128.ShapeCasts S32x2048x128
  dot_S2048x128_S128x1024_S2048x1024_1_0_0_1_n_n_wf : DotDims.WF S2048x128 S128x1024 S2048x1024 [1] [0] [0] [1] [] []
  dot_S2048x128_S8x128_S2048x8_1_1_0_0_n_n_wf : DotDims.WF S2048x128 S8x128 S2048x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x128_S8x128_S2048x8_1_1_0_0_n_n : DotDims S2048x128 S8x128 S2048x8 where
  lhsContracting := [1]
  rhsContracting := [1]
  lhsNonContracting := [0]
  rhsNonContracting := [0]
  lhsBatch := []
  rhsBatch := []
  wf := dot_S2048x128_S8x128_S2048x8_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S8x128x128 : Shape := ⟨3, ![8, 128, 128]⟩
abbrev S8x128 : Shape := ⟨2, ![8, 128]⟩
abbrev S8x1x128 : Shape := ⟨3, ![8, 1, 128]⟩
abbrev S8x128x32x2048 : Shape := ⟨4, ![8, 128, 32, 2048]⟩
abbrev S8x32x2048x128 : Shape := ⟨4, ![8, 32, 2048, 128]⟩
abbrev S8x1x1x128 : Shape := ⟨4, ![8, 1, 1, 128]⟩
abbrev S_ : Shape := ⟨0, ![]⟩
abbrev S32x2048 : Shape := ⟨2, ![32, 2048]⟩
abbrev S32x2048x1 : Shape := ⟨3, ![32, 2048, 1]⟩
abbrev S1x32x2048x1 : Shape := ⟨4, ![1, 32, 2048, 1]⟩
abbrev S8x1 : Shape := ⟨2, ![8, 1]⟩
abbrev S8x1x1 : Shape := ⟨3, ![8, 1, 1]⟩
abbrev S8x1x1x1 : Shape := ⟨4, ![8, 1, 1, 1]⟩
abbrev S1x32x2048x128 : Shape := ⟨4, ![1, 32, 2048, 128]⟩
abbrev S8x32x2048 : Shape := ⟨3, ![8, 32, 2048]⟩
abbrev S8x32x2048x1 : Shape := ⟨4, ![8, 32, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S8x128x128, .f32⟩
  | .hbm, ⟨2, _⟩ => ⟨S8x128, .f32⟩
  | .hbm, ⟨3, _⟩ => ⟨S8x1x128, .f32⟩
  | .hbm, ⟨4, _⟩ => ⟨S8x128x32x2048, .f32⟩
  | .hbm, ⟨5, _⟩ => ⟨S8x32x2048x128, .f32⟩
  | .hbm, ⟨6, _⟩ => ⟨S8x1x1x128, .f32⟩
  | .hbm, ⟨7, _⟩ => ⟨S8x32x2048x128, .f32⟩
  | .hbm, ⟨8, _⟩ => ⟨S8x32x2048x128, .f32⟩
  | .hbm, ⟨9, _⟩ => ⟨S32x2048x128, .f32⟩
  | .hbm, ⟨10, _⟩ => ⟨S_, .f32⟩
  | .hbm, ⟨11, _⟩ => ⟨S32x2048, .f32⟩
  | .hbm, ⟨12, _⟩ => ⟨S32x2048x1, .f32⟩
  | .hbm, ⟨13, _⟩ => ⟨S32x2048x1, .f32⟩
  | .hbm, ⟨14, _⟩ => ⟨S1x32x2048x1, .f32⟩
  | .hbm, ⟨15, _⟩ => ⟨S8x1x128, .f32⟩
  | .hbm, ⟨16, _⟩ => ⟨S_, .f32⟩
  | .hbm, ⟨17, _⟩ => ⟨S8x1, .f32⟩
  | .hbm, ⟨18, _⟩ => ⟨S8x1x1, .f32⟩
  | .hbm, ⟨19, _⟩ => ⟨S8x1x1, .f32⟩
  | .hbm, ⟨20, _⟩ => ⟨S8x1x1x1, .f32⟩
  | .hbm, ⟨21, _⟩ => ⟨S1x32x2048x128, .f32⟩
  | .hbm, ⟨22, _⟩ => ⟨S8x1x1x128, .f32⟩
  | .hbm, ⟨23, _⟩ => ⟨S8x32x2048x128, .f32⟩
  | .hbm, ⟨24, _⟩ => ⟨S8x32x2048x128, .f32⟩
  | .hbm, ⟨25, _⟩ => ⟨S8x32x2048x128, .f32⟩
  | .hbm, ⟨26, _⟩ => ⟨S_, .f32⟩
  | .hbm, ⟨27, _⟩ => ⟨S8x32x2048, .f32⟩
  | .hbm, ⟨28, _⟩ => ⟨S8x32x2048x1, .f32⟩
  | .hbm, ⟨29, _⟩ => ⟨S8x32x2048x1, .f32⟩
  | .hbm, ⟨30, _⟩ => ⟨S8x32x2048x1, .f32⟩
  | .hbm, ⟨31, _⟩ => ⟨S8x32x2048x1, .f32⟩
  | .hbm, ⟨32, _⟩ => ⟨S8x32x2048x1, .f32⟩
  | .hbm, ⟨33, _⟩ => ⟨S_, .f32⟩
  | .hbm, ⟨34, _⟩ => ⟨S32x2048x1, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S1x32x2048x1, .f32⟩
  | .hbm, ⟨39, _⟩ => ⟨S8x32x2048x1, .f32⟩
  | .hbm, ⟨40, _⟩ => ⟨S8x32x2048x1, .f32⟩
  | .hbm, ⟨41, _⟩ => ⟨S8x32x2048x1, .f32⟩
  | .hbm, ⟨42, _⟩ => ⟨S_, .f32⟩
  | .hbm, ⟨43, _⟩ => ⟨S32x2048x1, .f32⟩
  | .hbm, ⟨44, _⟩ => ⟨S1x32x2048x1, .f32⟩
  | .hbm, ⟨45, _⟩ => ⟨S8x32x2048x1, .f32⟩
  | .hbm, ⟨46, _⟩ => ⟨S8x32x2048x1, .f32⟩
  | .hbm, ⟨47, _⟩ => ⟨S8x32x2048x128, .f32⟩
  | .hbm, ⟨48, _⟩ => ⟨S8x32x2048x128, .f32⟩
  | .hbm, ⟨49, _⟩ => ⟨S_, .f32⟩
  | .hbm, ⟨50, _⟩ => ⟨S32x2048x128, .f32⟩
  | .hbm, ⟨51, _⟩ => ⟨S32x2048x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  transposes_S8x128x32x2048_S8x32x2048x128_0_2_3_1 : S8x128x32x2048.Transposes [0, 2, 3, 1] S8x32x2048x128
  bcast_S8x128_S8x1x1x128_0_3 : S8x128.BroadcastsInDim S8x1x1x128 (![0, 3] : Fin 2 → Fin S8x1x1x128.rank)
  bcast_S8x1x1x128_S8x32x2048x128_0_1_2_3 : S8x1x1x128.BroadcastsInDim S8x32x2048x128 (![0, 1, 2, 3] : Fin 4 → Fin S8x32x2048x128.rank)
  reducesTo_S32x2048x128_S32x2048_d2 : S32x2048x128.ReducesTo [2] S32x2048
  h_S_ : 0 < S_.numel
  bcast_S32x2048_S32x2048x1_0_1 : S32x2048.BroadcastsInDim S32x2048x1 (![0, 1] : Fin 2 → Fin S32x2048x1.rank)
  bcast_S32x2048x1_S1x32x2048x1_1_2_3 : S32x2048x1.BroadcastsInDim S1x32x2048x1 (![1, 2, 3] : Fin 3 → Fin S1x32x2048x1.rank)
  reducesTo_S8x1x128_S8x1_d2 : S8x1x128.ReducesTo [2] S8x1
  bcast_S8x1_S8x1x1_0_1 : S8x1.BroadcastsInDim S8x1x1 (![0, 1] : Fin 2 → Fin S8x1x1.rank)
  bcast_S8x1x1_S8x1x1x1_0_2_3 : S8x1x1.BroadcastsInDim S8x1x1x1 (![0, 2, 3] : Fin 3 → Fin S8x1x1x1.rank)
  bcast_S32x2048x128_S1x32x2048x128_1_2_3 : S32x2048x128.BroadcastsInDim S1x32x2048x128 (![1, 2, 3] : Fin 3 → Fin S1x32x2048x128.rank)
  bcast_S8x1x128_S8x1x1x128_0_2_3 : S8x1x128.BroadcastsInDim S8x1x1x128 (![0, 2, 3] : Fin 3 → Fin S8x1x1x128.rank)
  bcast_S1x32x2048x128_S8x32x2048x128_0_1_2_3 : S1x32x2048x128.BroadcastsInDim S8x32x2048x128 (![0, 1, 2, 3] : Fin 4 → Fin S8x32x2048x128.rank)
  reducesTo_S8x32x2048x128_S8x32x2048_d3 : S8x32x2048x128.ReducesTo [3] S8x32x2048
  bcast_S8x32x2048_S8x32x2048x1_0_1_2 : S8x32x2048.BroadcastsInDim S8x32x2048x1 (![0, 1, 2] : Fin 3 → Fin S8x32x2048x1.rank)
  bcast_S1x32x2048x1_S8x32x2048x1_0_1_2_3 : S1x32x2048x1.BroadcastsInDim S8x32x2048x1 (![0, 1, 2, 3] : Fin 4 → Fin S8x32x2048x1.rank)
  bcast_S8x1x1x1_S8x32x2048x1_0_1_2_3 : S8x1x1x1.BroadcastsInDim S8x32x2048x1 (![0, 1, 2, 3] : Fin 4 → Fin S8x32x2048x1.rank)
  reducesTo_S8x32x2048x1_S32x2048x1_d0 : S8x32x2048x1.ReducesTo [0] S32x2048x1
  bcast_S_S32x2048x1 : S_.BroadcastsInDim S32x2048x1 (![] : Fin 0 → Fin S32x2048x1.rank)
  bcast_S8x32x2048x1_S8x32x2048x128_0_1_2_3 : S8x32x2048x1.BroadcastsInDim S8x32x2048x128 (![0, 1, 2, 3] : Fin 4 → Fin S8x32x2048x128.rank)
  reducesTo_S8x32x2048x128_S32x2048x128_d0 : S8x32x2048x128.ReducesTo [0] S32x2048x128
  dot_S8x128x128_S32x2048x128_S8x128x32x2048_2_2_01_01_n_n_wf : DotDims.WF S8x128x128 S32x2048x128 S8x128x32x2048 [2] [2] [0, 1] [0, 1] [] []

variable [Facts₀]

def dot_S8x128x128_S32x2048x128_S8x128x32x2048_2_2_01_01_n_n : DotDims S8x128x128 S32x2048x128 S8x128x32x2048 where
  lhsContracting := [2]
  rhsContracting := [2]
  lhsNonContracting := [0, 1]
  rhsNonContracting := [0, 1]
  lhsBatch := []
  rhsBatch := []
  wf := dot_S8x128x128_S32x2048x128_S8x128x32x2048_2_2_01_01_n_n_wf

class Facts : Prop extends Facts₀ where

variable [Facts]
-- ==== Proof.KernelDots.lean ====
/-
  The body's two matrix products at the ideal values, read at an index.
  * The rows' block times the fused weights: a [2048, 128] by [128, 1024] product contracted on the left operand's
    second axis and the right operand's first; at (a, c) it is the sum over k < 128 of l(a, k) · r(k, c).
  * The rows' block against the prototypes: a [2048, 128] by [8, 128] product contracted on BOTH operands' second axis;
    at (a, t) it is the sum over k < 128 of l(a, k) · r(t, k).
  Each is the product's defining sum into a zero accumulator, its contraction index renamed to k < 128 and each
  operand's index spelt by its two coordinates.
-/
import proofs.«107700_j2757369004744_2_alg».proof.Proof.Gen.KernelIdeal
import Idealize.ShloMosaic.PureOps.Ideal.Laws
import Idealize.ShloMosaic.Lib.ValueIdx

noncomputable section

namespace Cert.KernelIdeal.Hand

open Cert.KernelIdeal Cert.KernelIdeal.Gen Idealize.ShloMosaic Idealize.ShloMosaic.ValueIdx

/-- The dimension numbers of the product with the fused weights. -/
abbrev dotW : DotDims S2048x128 S128x1024 S2048x1024 := dot_S2048x128_S128x1024_S2048x1024_1_0_0_1_n_n
/-- The dimension numbers of the product with the prototypes. -/
abbrev dotP : DotDims S2048x128 S8x128 S2048x8 := dot_S2048x128_S8x128_S2048x8_1_1_0_0_n_n

/-! ## The product with the fused weights -/

theorem dotW_lhs0 (i : S2048x1024.Idx) (q : dotW.contr.Idx) : (dotW.lhsIdx i q 0).val = (i 0).val := by
  unfold DotDims.lhsIdx
  rw [dif_neg (show ¬(0 : Fin S2048x128.rank) ∈ dotW.lhsBatch by decide), dif_pos (show (0 : Fin S2048x128.rank) ∈ dotW.lhsNonContracting by decide)]
  rfl
theorem dotW_lhs1 (i : S2048x1024.Idx) (q : dotW.contr.Idx) : (dotW.lhsIdx i q 1).val = (q ⟨0, by decide⟩).val :=
  dotW.lhsIdx_val_of_single rfl i q
theorem dotW_rhs0 (i : S2048x1024.Idx) (q : dotW.contr.Idx) : (dotW.rhsIdx i q 0).val = (q ⟨0, by decide⟩).val :=
  dotW.rhsIdx_val_of_single rfl i q
theorem dotW_rhs1 (i : S2048x1024.Idx) (q : dotW.contr.Idx) : (dotW.rhsIdx i q 1).val = (i 1).val := by
  unfold DotDims.rhsIdx
  rw [dif_neg (show ¬(1 : Fin S128x1024.rank) ∈ dotW.rhsBatch by decide), dif_pos (show (1 : Fin S128x1024.rank) ∈ dotW.rhsNonContracting by decide)]
  rfl

/-- At (a, c): the sum over k of l(a, k) · r(k, c). -/
theorem matmulW_apply {φ₁ φ₂ : FTy} (l : FVec Ideal S2048x128 φ₁) (r : FVec Ideal S128x1024 φ₂) (a : Fin 2048) (c : Fin 1024) :
    matmul (F := Ideal) dotW none l r (constant S2048x1024 .f32 0x00000000#32) (ix2 a c)
      = ∑ k : Fin 128, l (ix2 a k) * r (ix2 k c) := by
  refine (Ideal.matmul_constant_zero_apply dotW none l r (ix2 a c)).trans ?_
  rw [← Equiv.sum_comp (contrEquiv1 dotW 128 rfl rfl).symm]
  refine Finset.sum_congr rfl fun k _ => ?_
  have hk := contrEquiv1_symm_val dotW 128 rfl rfl k
  have el : dotW.lhsIdx (ix2 a c) ((contrEquiv1 dotW 128 rfl rfl).symm k) = ix2 a k := funext fun x => Fin.ext (by
    match x with
    | ⟨0, _⟩ => exact dotW_lhs0 _ _
    | ⟨1, _⟩ => exact (dotW_lhs1 _ _).trans hk)
  have er : dotW.rhsIdx (ix2 a c) ((contrEquiv1 dotW 128 rfl rfl).symm k) = ix2 k c := funext fun x => Fin.ext (by
    match x with
    | ⟨0, _⟩ => exact (dotW_rhs0 _ _).trans hk
    | ⟨1, _⟩ => exact dotW_rhs1 _ _)
  rw [el, er]

/-! ## The product with the prototypes -/

theorem dotP_lhs0 (i : S2048x8.Idx) (q : dotP.contr.Idx) : (dotP.lhsIdx i q 0).val = (i 0).val := by
  unfold DotDims.lhsIdx
  rw [dif_neg (show ¬(0 : Fin S2048x128.rank) ∈ dotP.lhsBatch by decide), dif_pos (show (0 : Fin S2048x128.rank) ∈ dotP.lhsNonContracting by decide)]
  rfl
theorem dotP_lhs1 (i : S2048x8.Idx) (q : dotP.contr.Idx) : (dotP.lhsIdx i q 1).val = (q ⟨0, by decide⟩).val :=
  dotP.lhsIdx_val_of_single rfl i q
theorem dotP_rhs0 (i : S2048x8.Idx) (q : dotP.contr.Idx) : (dotP.rhsIdx i q 0).val = (i 1).val := by
  unfold DotDims.rhsIdx
  rw [dif_neg (show ¬(0 : Fin S8x128.rank) ∈ dotP.rhsBatch by decide), dif_pos (show (0 : Fin S8x128.rank) ∈ dotP.rhsNonContracting by decide)]
  rfl
theorem dotP_rhs1 (i : S2048x8.Idx) (q : dotP.contr.Idx) : (dotP.rhsIdx i q 1).val = (q ⟨0, by decide⟩).val :=
  dotP.rhsIdx_val_of_single rfl i q

/-- At (a, t): the sum over k of l(a, k) · r(t, k). -/
theorem matmulP_apply {φ₁ φ₂ : FTy} (l : FVec Ideal S2048x128 φ₁) (r : FVec Ideal S8x128 φ₂) (a : Fin 2048) (u : Fin 8) :
    matmul (F := Ideal) dotP none l r (constant S2048x8 .f32 0x00000000#32) (ix2 a u)
      = ∑ k : Fin 128, l (ix2 a k) * r (ix2 u k) := by
  refine (Ideal.matmul_constant_zero_apply dotP none l r (ix2 a u)).trans ?_
  rw [← Equiv.sum_comp (contrEquiv1 dotP 128 rfl rfl).symm]
  refine Finset.sum_congr rfl fun k _ => ?_
  have hk := contrEquiv1_symm_val dotP 128 rfl rfl k
  have el : dotP.lhsIdx (ix2 a u) ((contrEquiv1 dotP 128 rfl rfl).symm k) = ix2 a k := funext fun x => Fin.ext (by
    match x with
    | ⟨0, _⟩ => exact dotP_lhs0 _ _
    | ⟨1, _⟩ => exact (dotP_lhs1 _ _).trans hk)
  have er : dotP.rhsIdx (ix2 a u) ((contrEquiv1 dotP 128 rfl rfl).symm k) = ix2 u k := funext fun x => Fin.ext (by
    match x with
    | ⟨0, _⟩ => exact dotP_rhs0 _ _
    | ⟨1, _⟩ => exact (dotP_rhs1 _ _).trans hk)
  rw [el, er]

end Cert.KernelIdeal.Hand

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.MoeRow.lean ====
/-
  A mixture of eight linear experts gated by cosine similarity, on one row of 128 numbers, over the extended reals.

  For a row x, weights w (expert t, output e, input d), biases b (expert t, output e) and prototypes p (expert t, input d):
    cosine t  = <x, p t> / (|x| · |p t|),
    gate t    = exp (cosine t − max over u of cosine u) / (sum over u of exp (cosine u − that max)),
    expert t e = (sum over d of x d · w t e d) + b t e,
    result e  = (sum over t of gate t · expert t e) + x e.
  Every operation is the exact one on the extended reals; the quotient, the square root and the exponential are the
  ideal instance's. Two small facts used where the two programs spell a step differently close the file: a maximum with
  the fold's own start value changes nothing, and eight terms added one after the other onto zero are their sum.
-/
import Idealize.ShloMosaic.PureOps.Ideal.Laws
import Idealize.ShloMosaic.Lib.ValueIdx

noncomputable section

namespace Cert.Moe

open Idealize.ShloMosaic Idealize.ShloMosaic.ValueIdx

/-- Minus infinity, as both programs write the start value of their maximum. -/
abbrev negInf : EReal := Ideal.ofBits .f32 0xFF800000#32

/-- The cosine of the angle between the row and prototype `t`. -/
def cosine (x : Fin 128 → EReal) (p : Fin 8 → Fin 128 → EReal) (t : Fin 8) : EReal :=
  Ideal.div (∑ d : Fin 128, x d * p t d)
    (Ideal.sqrt (∑ d : Fin 128, x d * x d) * Ideal.sqrt (∑ d : Fin 128, p t d * p t d))

/-- The largest of the eight cosines. -/
def rowMax (x : Fin 128 → EReal) (p : Fin 8 → Fin 128 → EReal) : EReal :=
  (Finset.univ : Finset (Fin 8)).fold max negInf (cosine x p)

/-- The shifted exponential of cosine `t`. -/
def expo (x : Fin 128 → EReal) (p : Fin 8 → Fin 128 → EReal) (t : Fin 8) : EReal :=
  Ideal.exp (cosine x p t - rowMax x p)

/-- The softmax weight of expert `t`. -/
def gate (x : Fin 128 → EReal) (p : Fin 8 → Fin 128 → EReal) (t : Fin 8) : EReal :=
  Ideal.div (expo x p t) (∑ u : Fin 8, expo x p u)

/-- Expert `t`'s affine map of the row, at output `e`. -/
def expert (x : Fin 128 → EReal) (w : Fin 8 → Fin 128 → Fin 128 → EReal) (b : Fin 8 → Fin 128 → EReal) (t : Fin 8) (e : Fin 128) : EReal :=
  (∑ d : Fin 128, x d * w t e d) + b t e

/-- The gated mixture of the experts plus the row itself, at output `e`. -/
def moeRow (x : Fin 128 → EReal) (w : Fin 8 → Fin 128 → Fin 128 → EReal) (b : Fin 8 → Fin 128 → EReal)
    (p : Fin 8 → Fin 128 → EReal) (e : Fin 128) : EReal :=
  (∑ t : Fin 8, gate x p t * expert x w b t e) + x e

/-- The whole result: entry (b, s, e) is the mixture on row (b, s) of the input array, with the weights (t, e, d), the biases
    (t, e) and the prototypes (t, 0, d) read off their arrays. -/
def moeArray (a0 : (⟨3, ![32, 2048, 128]⟩ : Shape).Idx → EReal) (a1 : (⟨3, ![8, 128, 128]⟩ : Shape).Idx → EReal)
    (a2 : (⟨2, ![8, 128]⟩ : Shape).Idx → EReal) (a3 : (⟨3, ![8, 1, 128]⟩ : Shape).Idx → EReal) :
    (⟨3, ![32, 2048, 128]⟩ : Shape).Idx → EReal :=
  fun i => moeRow (fun d => a0 (ix3 (⟨(i 0).val, (i 0).isLt⟩ : Fin 32) (⟨(i 1).val, (i 1).isLt⟩ : Fin 2048) d)) (fun t e d => a1 (ix3 t e d))
    (fun t e => a2 (ix2 t e)) (fun t d => a3 (ix3 t (0 : Fin 1) d)) (⟨(i 2).val, (i 2).isLt⟩ : Fin 128)

theorem moeArray_apply (a0 : (⟨3, ![32, 2048, 128]⟩ : Shape).Idx → EReal) (a1 : (⟨3, ![8, 128, 128]⟩ : Shape).Idx → EReal)
    (a2 : (⟨2, ![8, 128]⟩ : Shape).Idx → EReal) (a3 : (⟨3, ![8, 1, 128]⟩ : Shape).Idx → EReal) (b : Fin 32) (s : Fin 2048) (e : Fin 128) :
    moeArray a0 a1 a2 a3 (ix3 b s e)
      = moeRow (fun d => a0 (ix3 b s d)) (fun t e d => a1 (ix3 t e d)) (fun t e => a2 (ix2 t e)) (fun t d => a3 (ix3 t (0 : Fin 1) d)) e := rfl

/-- A fold of `max` is above its start value, so a further maximum with that value changes nothing. -/
theorem max_fold_self (b : EReal) (f : Fin 8 → EReal) :
    max b ((Finset.univ : Finset (Fin 8)).fold max b f) = (Finset.univ : Finset (Fin 8)).fold max b f :=
  max_eq_right ((Finset.le_fold_max b).mpr (Or.inl le_rfl))

/-- Eight terms added in order onto zero are their sum. -/
theorem sum_eight (f : Fin 8 → EReal) :
    0 + f 0 + f 1 + f 2 + f 3 + f 4 + f 5 + f 6 + f 7 = ∑ t : Fin 8, f t := by
  rw [Fin.sum_univ_eight, zero_add]

end Cert.Moe

end
-- ==== Proof.KernelRow.lean ====
/-
  What the kernel's body stores at entry (r, e) of its output block, at the ideal values: the gated mixture of the
  eight experts on row r of its block of rows, plus that row's own entry e.

  The body's arithmetic in pieces:
  * the fused product: entry (r, c) of the [2048, 1024] matrix is the sum over d of x(r, d) · W(d, c), plus the bias c;
    column c = 128 t + e is expert t's output e;
  * the cosines: the product with the prototypes divided by the product of the two norms, each norm the square root
    of a row's sum of squares, kept as a column and as a row and spread over the [2048, 8] matrix;
  * the softmax along each row of eight: the row's maximum subtracted, the exponential, the division by the row's sum;
  * the mixture: for t = 0 … 7 in order, column t of the weights spread along a row times the t-th block of 128
    columns of the fused product, added onto zero; last the block of rows itself is added.
-/
import proofs.«107700_j2757369004744_2_alg».proof.Proof.Gen.KernelIdeal.Skeleton
import proofs.«107700_j2757369004744_2_alg».proof.Proof.KernelDots
import proofs.«107700_j2757369004744_2_alg».proof.Proof.LibRowReduce
import proofs.«107700_j2757369004744_2_alg».proof.Proof.LibColumn
import proofs.«107700_j2757369004744_2_alg».proof.Proof.MoeRow
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx Cert.Moe

/-! ## The body's operands as a row, weights, biases and prototypes -/

/-- Row `r` of the block of rows. -/
abbrev rowOf (X : Vec Ideal S2048x128 .f32) (r : Fin 2048) : Fin 128 → EReal := fun d => X (ix2 r d)
/-- Expert `t`'s output `e` is column 128 t + e of the fused layout. -/
abbrev col (t : Fin 8) (e : Fin 128) : Fin 1024 := ⟨t.val * 128 + e.val, by have := t.isLt; have := e.isLt; omega⟩
/-- The fused weights as expert, output, input. -/
abbrev wOf (Wb : Vec Ideal S128x1024 .bf16) : Fin 8 → Fin 128 → Fin 128 → EReal := fun t e d => Wb (ix2 d (col t e))
/-- The fused biases as expert, output. -/
abbrev bOf (Bv : Vec Ideal S1x1024 .f32) : Fin 8 → Fin 128 → EReal := fun t e => Bv (ix2 (0 : Fin 1) (col t e))
/-- The prototypes as expert, input. -/
abbrev pOf (P : Vec Ideal S8x128 .f32) : Fin 8 → Fin 128 → EReal := fun t d => P (ix2 t d)

/-! ## The fused product -/

/-- The block of rows as loaded is the block of rows. -/
theorem pay2_eq (X : Vec Ideal S2048x128 .f32) : k0_pay2 X = X := shapeCast_self X _

/-- Entry (r, c) of the fused product with its bias. -/
theorem pay3_apply (X : Vec Ideal S2048x128 .f32) (Wb : Vec Ideal S128x1024 .bf16) (Bv : Vec Ideal S1x1024 .f32) (r : Fin 2048) (c : Fin 1024) :
    k0_pay3 X Wb Bv (ix2 r c) = (∑ d : Fin 128, X (ix2 r d) * Wb (ix2 d c)) + Bv (ix2 (0 : Fin 1) c) := by
  unfold k0_pay3
  show matmul (F := Ideal) dotW none (truncf .bf16 (k0_pay2 X) bitsLt_bf16_f32) (shapeCast S128x1024 Wb shapeCasts_S128x1024_S128x1024) (constant S2048x1024 .f32 0x00000000#32) (ix2 r c)
      + broadcastTo S2048x1024 (shapeCast S1x1024 (shapeCast S1024 Bv shapeCasts_S1x1024_S1024) shapeCasts_S1024_S1x1024) broadcasts_S1x1024_S2048x1024 (ix2 r c) = _
  rw [pay2_eq, shapeCast_self]
  refine congrArg₂ (· + ·) ?_ ?_
  · exact matmulW_apply _ _ r c
  · refine (broadcastTo_1b_ab_apply _ _ r c).trans ?_
    refine (shapeCast_a_1a_apply _ _ 0 c).trans ?_
    exact shapeCast_1a_a_apply _ _ c

/-- Expert `t`'s output `e` on row `r`, read off the fused product. -/
theorem expert_apply (X : Vec Ideal S2048x128 .f32) (Wb : Vec Ideal S128x1024 .bf16) (Bv : Vec Ideal S1x1024 .f32) (r : Fin 2048) (t : Fin 8) (e : Fin 128) :
    k0_pay3 X Wb Bv (ix2 r (col t e)) = expert (rowOf X r) (wOf Wb) (bOf Bv) t e :=
  pay3_apply X Wb Bv r (col t e)

/-! ## The cosines -/

/-- The [2048, 8] matrix of cosines, as the body computes it from the block of rows and the prototypes. -/
def cosV (X : FVec Ideal S2048x128 .f32) (P : FVec Ideal S8x128 .f32) : FVec Ideal S2048x8 .f32 :=
  divf (matmul dotP none X P (constant S2048x8 .f32 0x00000000#32))
    (mulf (broadcastTo S2048x8 (sqrt (shapeCast S2048x1 (multiReduction .add [1] S2048 (mulf X X) 0x00000000#32 reduces_S2048x128_S2048 (.inl rfl) rfl) shapeCasts_S2048_S2048x1)) broadcasts_S2048x1_S2048x8)
      (broadcastTo S2048x8 (shapeCast S1x8 (sqrt (multiReduction .add [1] S8 (mulf P P) 0x00000000#32 reduces_S8x128_S8 (.inl rfl) rfl)) shapeCasts_S8_S1x8) broadcasts_S1x8_S2048x8))

/-- Entry (r, u) of the cosines is the cosine of row `r` with prototype `u`. -/
theorem cosV_apply (X : FVec Ideal S2048x128 .f32) (P : FVec Ideal S8x128 .f32) (r : Fin 2048) (u : Fin 8) :
    cosV X P (ix2 r u) = cosine (rowOf X r) (pOf P) u := by
  unfold cosV cosine
  show Ideal.div (matmul (F := Ideal) dotP none X P (constant S2048x8 .f32 0x00000000#32) (ix2 r u))
      (broadcastTo S2048x8 (sqrt (shapeCast S2048x1 (multiReduction .add [1] S2048 (mulf X X) 0x00000000#32 reduces_S2048x128_S2048 (.inl rfl) rfl) shapeCasts_S2048_S2048x1)) broadcasts_S2048x1_S2048x8 (ix2 r u)
        * broadcastTo S2048x8 (shapeCast S1x8 (sqrt (multiReduction .add [1] S8 (mulf P P) 0x00000000#32 reduces_S8x128_S8 (.inl rfl) rfl)) shapeCasts_S8_S1x8) broadcasts_S1x8_S2048x8 (ix2 r u)) = _
  refine congrArg₂ Ideal.div (matmulP_apply X P r u) (congrArg₂ (· * ·) ?_ ?_)
  · refine (LibColumn.broadcastTo_a1_ab_apply _ _ r u).trans ?_
    show Ideal.sqrt (shapeCast S2048x1 _ shapeCasts_S2048_S2048x1 (ix2 r (0 : Fin 1))) = _
    refine congrArg Ideal.sqrt ((LibColumn.shapeCast_a_a1_apply _ _ r 0).trans ?_)
    exact LibRowReduce.rowSum_apply (mulf X X) _ _ _ _ r
  · refine (broadcastTo_1b_ab_apply _ _ r u).trans ?_
    refine (shapeCast_a_1a_apply _ _ 0 u).trans ?_
    show Ideal.sqrt (multiReduction .add [1] S8 (mulf P P) 0x00000000#32 reduces_S8x128_S8 (.inl rfl) rfl (ix1 u)) = _
    exact congrArg Ideal.sqrt (LibRowReduce.rowSum_apply (mulf P P) _ _ _ _ u)

/-! ## The softmax along the rows of eight -/

/-- The exponentials of a [2048, 8] matrix's entries less their row's maximum. -/
def expV (C : FVec Ideal S2048x8 .f32) : FVec Ideal S2048x8 .f32 :=
  exp (subf C (broadcastTo S2048x8 (shapeCast S2048x1 (multiReduction .maximumf [1] S2048 C 0xFF800000#32 reduces_S2048x8_S2048 (.inl rfl) rfl) shapeCasts_S2048_S2048x1) broadcasts_S2048x1_S2048x8))

/-- Those exponentials divided by their row's sum. -/
def softV (C : FVec Ideal S2048x8 .f32) : FVec Ideal S2048x8 .f32 :=
  divf (expV C) (broadcastTo S2048x8 (shapeCast S2048x1 (multiReduction .add [1] S2048 (expV C) 0x00000000#32 reduces_S2048x8_S2048 (.inl rfl) rfl) shapeCasts_S2048_S2048x1) broadcasts_S2048x1_S2048x8)

theorem expV_apply (C : FVec Ideal S2048x8 .f32) (r : Fin 2048) (u : Fin 8) :
    expV C (ix2 r u) = Ideal.exp (C (ix2 r u) - (Finset.univ : Finset (Fin 8)).fold max negInf (fun k => C (ix2 r k))) := by
  unfold expV
  show Ideal.exp (C (ix2 r u) - broadcastTo S2048x8 (shapeCast S2048x1 (multiReduction .maximumf [1] S2048 C 0xFF800000#32 reduces_S2048x8_S2048 (.inl rfl) rfl) shapeCasts_S2048_S2048x1) broadcasts_S2048x1_S2048x8 (ix2 r u)) = _
  refine congrArg (fun z => Ideal.exp (C (ix2 r u) - z)) ?_
  refine (LibColumn.broadcastTo_a1_ab_apply _ _ r u).trans ?_
  refine (LibColumn.shapeCast_a_a1_apply _ _ r 0).trans ?_
  exact LibRowReduce.rowMax_apply C _ _ _ _ r

theorem softV_apply (C : FVec Ideal S2048x8 .f32) (r : Fin 2048) (u : Fin 8) :
    softV C (ix2 r u) = Ideal.div (expV C (ix2 r u)) (∑ k : Fin 8, expV C (ix2 r k)) := by
  unfold softV
  show Ideal.div (expV C (ix2 r u)) (broadcastTo S2048x8 (shapeCast S2048x1 (multiReduction .add [1] S2048 (expV C) 0x00000000#32 reduces_S2048x8_S2048 (.inl rfl) rfl) shapeCasts_S2048_S2048x1) broadcasts_S2048x1_S2048x8 (ix2 r u)) = _
  refine congrArg (Ideal.div (expV C (ix2 r u))) ?_
  refine (LibColumn.broadcastTo_a1_ab_apply _ _ r u).trans ?_
  refine (LibColumn.shapeCast_a_a1_apply _ _ r 0).trans ?_
  exact LibRowReduce.rowSum_apply (expV C) _ _ _ _ r

/-- The body's weights are the softmax of its cosines. -/
theorem pay4_eq (X : Vec Ideal S2048x128 .f32) (P : Vec Ideal S8x128 .f32) :
    k0_pay4 X P = softV (cosV (k0_pay2 X) (shapeCast S8x128 P shapeCasts_S8x128_S8x128)) := rfl

/-- Entry (r, u) of the body's weights is expert `u`'s softmax weight on row `r`. -/
theorem gate_apply (X : Vec Ideal S2048x128 .f32) (P : Vec Ideal S8x128 .f32) (r : Fin 2048) (u : Fin 8) :
    k0_pay4 X P (ix2 r u) = gate (rowOf X r) (pOf P) u := by
  rw [pay4_eq, pay2_eq, shapeCast_self]
  have hc : (fun k : Fin 8 => cosV X P (ix2 r k)) = cosine (rowOf X r) (pOf P) := funext fun k => cosV_apply X P r k
  have he : ∀ k : Fin 8, expV (cosV X P) (ix2 r k) = expo (rowOf X r) (pOf P) k := fun k => by
    rw [expV_apply, hc, cosV_apply]; rfl
  rw [softV_apply, he u]
  unfold gate
  exact congrArg (Ideal.div _) (Finset.sum_congr rfl fun k _ => he k)

/-! ## The mixture -/

/-- One term of the mixture: a column of the weights spread along the row, times a block of 128 columns. -/
theorem term_apply (G : FVec Ideal S2048x8 .f32) (Y : FVec Ideal S2048x1024 .f32) (og oy : Nat)
    (hG : S2048x8.Slices ![0, og] S2048x1) (hY : S2048x1024.Slices ![0, oy] S2048x128)
    (u : Fin 8) (hu : u.val = og + (0 : Fin 1).val) (e : Fin 128) (c : Fin 1024) (hc : c.val = oy + e.val) (r : Fin 2048) :
    mulf (broadcastTo S2048x128 (extractStridedSlice S2048x1 ![0, og] G hG) broadcasts_S2048x1_S2048x128)
        (extractStridedSlice S2048x128 ![0, oy] Y hY) (ix2 r e)
      = G (ix2 r u) * Y (ix2 r c) := by
  show broadcastTo S2048x128 (extractStridedSlice S2048x1 ![0, og] G hG) broadcasts_S2048x1_S2048x128 (ix2 r e)
      * extractStridedSlice S2048x128 ![0, oy] Y hY (ix2 r e) = _
  refine congrArg₂ (· * ·) ?_ (slice2_axis1_apply oy Y hY r e c hc)
  refine (LibColumn.broadcastTo_a1_ab_apply _ _ r e).trans ?_
  exact slice2_axis1_apply og G hG r (0 : Fin 1) u hu

/-- THE BODY'S STORE at (r, e): the gated mixture on row `r`, at output `e`. -/
theorem payload_apply (X : Vec Ideal S2048x128 .f32) (Wb : Vec Ideal S128x1024 .bf16) (Bv : Vec Ideal S1x1024 .f32) (P : Vec Ideal S8x128 .f32)
    (r : Fin 2048) (e : Fin 128) :
    k0_pay1 (k0_pay2 X) (k0_pay3 X Wb Bv) (k0_pay4 X P) (k0_pay5 X Wb Bv P) (k0_pay6 X Wb Bv) (k0_pay7 X P) (ix2 r e)
      = moeRow (rowOf X r) (wOf Wb) (bOf Bv) (pOf P) e := by
  have e0 := (term_apply (k0_pay4 X P) (k0_pay3 X Wb Bv) 0 0 slices_S2048x8_o0_0_S2048x1 slices_S2048x1024_o0_0_S2048x128 (0 : Fin 8) rfl e (col 0 e) rfl r).trans
    (congrArg₂ (· * ·) (gate_apply X P r 0) (expert_apply X Wb Bv r 0 e))
  have e1 := (term_apply (k0_pay4 X P) (k0_pay3 X Wb Bv) 1 128 slices_S2048x8_o0_1_S2048x1 slices_S2048x1024_o0_128_S2048x128 (1 : Fin 8) rfl e (col 1 e) rfl r).trans
    (congrArg₂ (· * ·) (gate_apply X P r 1) (expert_apply X Wb Bv r 1 e))
  have e2 := (term_apply (k0_pay4 X P) (k0_pay3 X Wb Bv) 2 256 slices_S2048x8_o0_2_S2048x1 slices_S2048x1024_o0_256_S2048x128 (2 : Fin 8) rfl e (col 2 e) rfl r).trans
    (congrArg₂ (· * ·) (gate_apply X P r 2) (expert_apply X Wb Bv r 2 e))
  have e3 := (term_apply (k0_pay4 X P) (k0_pay3 X Wb Bv) 3 384 slices_S2048x8_o0_3_S2048x1 slices_S2048x1024_o0_384_S2048x128 (3 : Fin 8) rfl e (col 3 e) rfl r).trans
    (congrArg₂ (· * ·) (gate_apply X P r 3) (expert_apply X Wb Bv r 3 e))
  have e4 := (term_apply (k0_pay4 X P) (k0_pay3 X Wb Bv) 4 512 slices_S2048x8_o0_4_S2048x1 slices_S2048x1024_o0_512_S2048x128 (4 : Fin 8) rfl e (col 4 e) rfl r).trans
    (congrArg₂ (· * ·) (gate_apply X P r 4) (expert_apply X Wb Bv r 4 e))
  have e5 := (term_apply (k0_pay4 X P) (k0_pay3 X Wb Bv) 5 640 slices_S2048x8_o0_5_S2048x1 slices_S2048x1024_o0_640_S2048x128 (5 : Fin 8) rfl e (col 5 e) rfl r).trans
    (congrArg₂ (· * ·) (gate_apply X P r 5) (expert_apply X Wb Bv r 5 e))
  have e6 := (term_apply (k0_pay4 X P) (k0_pay3 X Wb Bv) 6 768 slices_S2048x8_o0_6_S2048x1 slices_S2048x1024_o0_768_S2048x128 (6 : Fin 8) rfl e (col 6 e) rfl r).trans
    (congrArg₂ (· * ·) (gate_apply X P r 6) (expert_apply X Wb Bv r 6 e))
  have e7 := (term_apply (k0_pay4 X P) (k0_pay3 X Wb Bv) 7 896 slices_S2048x8_o0_7_S2048x1 slices_S2048x1024_o0_896_S2048x128 (7 : Fin 8) rfl e (col 7 e) rfl r).trans
    (congrArg₂ (· * ·) (gate_apply X P r 7) (expert_apply X Wb Bv r 7 e))
  have s0 : (broadcast S2048x128 (Scalar.ofBits (F := Ideal) .f32 0x00000000#32) : FVec Ideal S2048x128 .f32) (ix2 r e) = (0 : EReal) :=
    Ideal.ofBits_zero_f32
  have s1 := congrArg₂ (· + ·) s0 e0
  have s2 := congrArg₂ (· + ·) s1 e1
  have s3 := congrArg₂ (· + ·) s2 e2
  have s4 := congrArg₂ (· + ·) s3 e3
  have s5 := congrArg₂ (· + ·) s4 e4
  have s6 := congrArg₂ (· + ·) s5 e5
  have s7 := congrArg₂ (· + ·) s6 e6
  have s8 := congrArg₂ (· + ·) s7 e7
  have hx : k0_pay2 X (ix2 r e) = rowOf X r e := congrFun (pay2_eq X) (ix2 r e)
  unfold moeRow
  rw [← sum_eight]
  unfold k0_pay1 k0_pay5 k0_pay6 k0_pay7
  exact congrArg₂ (· + ·) s8 hx

end Cert.KernelIdeal.Hand

end
-- ==== Proof.KernelValue.lean ====
/-
  The kernel program's result array at the ideal values: the mixture, entry by entry.

  Around the one grid of 32 points the program reshapes its arguments — the input to [65536, 128] rows, the weights
  transposed to (d, t, e) and flattened to [128, 1024], the biases to one row of 1024, the prototypes to [8, 128] — and
  reshapes the [65536, 128] result back to [32, 2048, 128].
  * The arrays the grid finds, read at an index: row n = 2048 b + s of the first is row (b, s) of the input; entry
    (d, 128 t + e) of the second is weight (t, e, d); entry (0, 128 t + e) of the third is bias (t, e); entry (t, d) of
    the fourth is prototype (t, 0, d).
  * Point t of the grid loads rows 2048 t … 2048 t + 2047 of the first array and the other three whole, and writes
    back rows 2048 t … 2048 t + 2047 of the result; what it writes is the body's store, the mixture row by row. So each
    written block is the block of ONE array G, whose entry (n, e) is the mixture on row n at output e.
  * Row n lies in the block of point n / 2048, so the 32 blocks cover the result, which therefore ends as G.
  * The closing reshape reads G at row 2048 b + s for the entry (b, s, e).
-/
import proofs.«107700_j2757369004744_2_alg».proof.Defs
import proofs.«107700_j2757369004744_2_alg».proof.Proof.Gen.KernelIdeal.Frame
import proofs.«107700_j2757369004744_2_alg».proof.Proof.KernelRow
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx Cert.Moe
open Idealize.ShloMosaic.Pipeline (Dat)

variable (m : (ℓ : Loc nD τ sig) → Buf (Elt Ideal) ℓ) (ρ : Dev nD → PrngReg)

/-! ## The arrays the grid finds -/

/-- The four argument arrays as launched. -/
abbrev a0 (c : Dev nD) : S32x2048x128.Idx → EReal := m ((c : Thread nD τ).loc main_arg0)
abbrev a1 (c : Dev nD) : S8x128x128.Idx → EReal := m ((c : Thread nD τ).loc main_arg1)
abbrev a2 (c : Dev nD) : S8x128.Idx → EReal := m ((c : Thread nD τ).loc main_arg2)
abbrev a3 (c : Dev nD) : S8x1x128.Idx → EReal := m ((c : Thread nD τ).loc main_arg3)

/-- The four arrays the grid reads, as it finds them. -/
abbrev A0 (c : Dev nD) : Vec Ideal S65536x128 .f32 := V m c main_v0
abbrev A3 (c : Dev nD) : Vec Ideal S128x1024 .bf16 := V m c main_v3
abbrev A4 (c : Dev nD) : Vec Ideal S1x1024 .f32 := V m c main_v4
abbrev A5 (c : Dev nD) : Vec Ideal S8x128 .f32 := V m c main_v5

theorem A0_eq (c : Dev nD) : A0 m c = shapeCast S65536x128 (a0 m c) shapeCasts_S32x2048x128_S65536x128 := by
  show StableHlo.after hostOps0 (fun b => m (c, b)) (Proc.devRef .tc main_v0) = _
  after_results
  rfl
theorem A3_eq (c : Dev nD) : (A3 m c : FVec Ideal S128x1024 .bf16) = truncf (F := Ideal) .bf16 (shapeCast S128x1024 (transpose S128x8x128 [2, 0, 1] (a1 m c) transposes_S8x128x128_S128x8x128_2_0_1) shapeCasts_S128x8x128_S128x1024) bitsLt_bf16_f32 := by
  show StableHlo.after hostOps0 (fun b => m (c, b)) (Proc.devRef .tc main_v3) = _
  after_results
  rfl
theorem A4_eq (c : Dev nD) : A4 m c = shapeCast S1x1024 (a2 m c) shapeCasts_S8x128_S1x1024 := by
  show StableHlo.after hostOps0 (fun b => m (c, b)) (Proc.devRef .tc main_v4) = _
  after_results
  rfl
theorem A5_eq (c : Dev nD) : A5 m c = shapeCast S8x128 (a3 m c) shapeCasts_S8x1x128_S8x128 := by
  show StableHlo.after hostOps0 (fun b => m (c, b)) (Proc.devRef .tc main_v5) = _
  after_results
  rfl

/-- Row 2048 b + s of the rows array is row (b, s) of the input. -/
theorem A0_apply (c : Dev nD) (b : Fin 32) (s : Fin 2048) (d : Fin 128) (n : Fin 65536) (hn : n.val = b.val * 2048 + s.val) :
    A0 m c (ix2 n d) = a0 m c (ix3 b s d) := by
  rw [A0_eq]
  refine shapeCast_apply _ _ _ _ ?_
  rw [Shape.rowMajor_val_three, Shape.rowMajor_val_two]
  show (b.val * 2048 + s.val) * 128 + d.val = n.val * 128 + d.val
  rw [hn]

/-- Entry (d, 128 t + e) of the fused weights is weight (t, e, d). -/
theorem A3_apply (c : Dev nD) (t : Fin 8) (e : Fin 128) (d : Fin 128) :
    A3 m c (ix2 d (col t e)) = a1 m c (ix3 t e d) := by
  rw [A3_eq]
  show shapeCast S128x1024 (transpose S128x8x128 [2, 0, 1] (a1 m c) transposes_S8x128x128_S128x8x128_2_0_1) shapeCasts_S128x8x128_S128x1024 (ix2 d (col t e)) = _
  refine (shapeCast_apply _ _ _ (ix3 d t e) ?_).trans ?_
  · rw [Shape.rowMajor_val_three, Shape.rowMajor_val_two]
    show (d.val * 8 + t.val) * 128 + e.val = d.val * 1024 + (t.val * 128 + e.val)
    omega
  · exact transpose_apply [2, 0, 1] (a1 m c) transposes_S8x128x128_S128x8x128_2_0_1 (ix3 d t e) (ix3 t e d) (fun b => match b with
      | ⟨0, _⟩ => rfl
      | ⟨1, _⟩ => rfl
      | ⟨2, _⟩ => rfl)

/-- Entry (0, 128 t + e) of the fused biases is bias (t, e). -/
theorem A4_apply (c : Dev nD) (t : Fin 8) (e : Fin 128) :
    A4 m c (ix2 (0 : Fin 1) (col t e)) = a2 m c (ix2 t e) := by
  rw [A4_eq]
  refine shapeCast_apply _ _ _ _ ?_
  rw [Shape.rowMajor_val_two, Shape.rowMajor_val_two]
  show t.val * 128 + e.val = 0 * 1024 + (t.val * 128 + e.val)
  omega

/-- Entry (t, d) of the prototypes' matrix is prototype (t, 0, d). -/
theorem A5_apply (c : Dev nD) (t : Fin 8) (d : Fin 128) :
    A5 m c (ix2 t d) = a3 m c (ix3 t (0 : Fin 1) d) := by
  rw [A5_eq]
  refine shapeCast_apply _ _ _ _ ?_
  rw [Shape.rowMajor_val_three, Shape.rowMajor_val_two]
  show (t.val * 1 + 0) * 128 + d.val = t.val * 128 + d.val
  omega

/-! ## The blocks a point loads -/

theorem hz : (![0, 0] : Fin 2 → Nat) = fun _ => 0 := funext fun a => by fin_cases a <;> rfl

/-- The printed index maps over the grid: the rows' window and the result's move one block of rows per point; the
    other three windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The rows' block at point t is rows 2048 t … of the rows array. -/
theorem iblk0_apply (c : Dev nD) (t : Fin cfg0.N) (r : Fin 2048) (d : Fin 128) (n : Fin 65536) (hn : n.val = t.val * 2048 + r.val) :
    (iblk m c 0 t : Vec Ideal S2048x128 .f32) (ix2 r d) = A0 m c (ix2 n d) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 2048 + 1 * r.val = n.val; rw [e0, hn]; omega
  | ⟨1, _⟩ => show win0_0.index t (1 : Fin 2) * 128 + 1 * d.val = d.val; rw [e1]; omega

/-- The other three blocks are their whole arrays. -/
theorem iblk1_apply (c : Dev nD) (t : Fin cfg0.N) (y : S128x1024.Idx) :
    (iblk m c 1 t : Vec Ideal S128x1024 .bf16) y = A3 m c y := by
  obtain ⟨-, -, e2, e3, -⟩ := idx_facts t
  unfold iblk
  rw [View.read_apply]
  show V m c main_v3 _ = V m c main_v3 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 1024 + 1 * (y 1).val = (y 1).val; rw [e3]; omega
theorem iblk2_apply (c : Dev nD) (t : Fin cfg0.N) (y : S1x1024.Idx) :
    (iblk m c 2 t : Vec Ideal S1x1024 .f32) y = A4 m c y := by
  obtain ⟨-, -, -, -, e4, e5, -⟩ := idx_facts t
  unfold iblk
  rw [View.read_apply]
  show V m c main_v4 _ = V m c main_v4 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 1024 + 1 * (y 1).val = (y 1).val; rw [e5]; omega
theorem iblk3_apply (c : Dev nD) (t : Fin cfg0.N) (y : S8x128.Idx) :
    (iblk m c 3 t : Vec Ideal S8x128 .f32) y = A5 m c y := by
  obtain ⟨-, -, -, -, -, -, e6, e7, -⟩ := idx_facts t
  unfold iblk
  rw [View.read_apply]
  show V m c main_v5 _ = V m c main_v5 _
  congr 1
  funext a
  apply Fin.ext
  match a with
  | ⟨0, _⟩ => show win0_3.index t (0 : Fin 2) * 8 + 1 * (y 0).val = (y 0).val; rw [e6]; omega
  | ⟨1, _⟩ => show win0_3.index t (1 : Fin 2) * 128 + 1 * (y 1).val = (y 1).val; rw [e7]; omega

/-! ## The result of the grid -/

/-- Entry (n, e) of the grid's result: the mixture on row n of the rows array, at output e. -/
def G (c : Dev nD) : S65536x128.Idx → EReal := fun i =>
  moeRow (fun d => A0 m c (ix2 (⟨(i 0).val, (i 0).isLt⟩ : Fin 65536) d)) (wOf (A3 m c)) (bOf (A4 m c)) (pOf (A5 m c)) (⟨(i 1).val, (i 1).isLt⟩ : Fin 128)

theorem G_apply (c : Dev nD) (n : Fin 65536) (e : Fin 128) :
    G m c (ix2 n e) = moeRow (fun d => A0 m c (ix2 n d)) (wOf (A3 m c)) (bOf (A4 m c)) (pOf (A5 m c)) e := rfl

/-- WHAT POINT t WRITES BACK is block t of G. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S2048x128) hz, View.ld_unit_zero (S := S128x1024) hz, View.ld_unit_zero (S := S1x1024) hz, View.ld_unit_zero (S := S8x128) hz]
  funext j
  obtain ⟨r, e, rfl⟩ : ∃ (r : Fin 2048) (e : Fin 128), j = ix2 r e := ⟨j 0, j 1, eq_ix2 j⟩
  obtain ⟨-, -, -, -, -, -, -, -, e8, e9⟩ := idx_facts t
  have ht : t.val < 32 := by have h := t.isLt; have hN : cfg0.N = 32 := N_0; omega
  let n : Fin 65536 := ⟨t.val * 2048 + r.val, by have := r.isLt; omega⟩
  have hemb : ((cfg0.win 4).blk t).view.emb (ix2 r e) = ix2 n e := by
    funext a
    apply Fin.ext
    match a with
    | ⟨0, _⟩ => show win0_4.index t (0 : Fin 2) * 2048 + 1 * r.val = t.val * 2048 + r.val; rw [e8]; omega
    | ⟨1, _⟩ => show win0_4.index t (1 : Fin 2) * 128 + 1 * e.val = e.val; rw [e9]; omega
  show k0_pay1 (k0_pay2 (iblk m c 0 t)) (k0_pay3 (iblk m c 0 t) (iblk m c 1 t) (iblk m c 2 t)) (k0_pay4 (iblk m c 0 t) (iblk m c 3 t))
      (k0_pay5 (iblk m c 0 t) (iblk m c 1 t) (iblk m c 2 t) (iblk m c 3 t)) (k0_pay6 (iblk m c 0 t) (iblk m c 1 t) (iblk m c 2 t))
      (k0_pay7 (iblk m c 0 t) (iblk m c 3 t)) (ix2 r e) = G m c (((cfg0.win 4).blk t).view.emb (ix2 r e))
  rw [hemb, G_apply]
  refine (payload_apply (iblk m c 0 t) (iblk m c 1 t) (iblk m c 2 t) (iblk m c 3 t) r e).trans ?_
  have h0 : rowOf (iblk m c 0 t) r = fun d => A0 m c (ix2 n d) := funext fun d => iblk0_apply m c t r d n rfl
  have h1 : wOf (iblk m c 1 t) = wOf (A3 m c) := funext fun u => funext fun o => funext fun d => iblk1_apply m c t _
  have h2 : bOf (iblk m c 2 t) = bOf (A4 m c) := funext fun u => funext fun o => iblk2_apply m c t _
  have h3 : pOf (iblk m c 3 t) = pOf (A5 m c) := funext fun u => funext fun d => iblk3_apply m c t _
  exact congrFun (congr (congr (congr (congrArg moeRow h0) h1) h2) h3) e

/-- An index of the result is in point t's block iff each coordinate is in the block's range on its axis. -/
theorem mem_blk (t : Fin cfg0.N) (i : S65536x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v6).slice (win0_4.rect t)).set ↔ _
  rw [View.set_slice_whole, Rect.mem_set_unit]
  exact Iff.rfl

/-- THE GRID'S RESULT after the run is G: row n is written by point n / 2048. -/
theorem final (c : Dev nD) : (dats m 0 c).arrAt 4 cfg0.N = G m c :=
  (dats m 0 c).arrAt_eq_of_cover 4 (G m c) (fun t _ => flushed_eq m c t) (fun i => by
    have hi0 : (i 0).val < 65536 := (i 0).isLt
    have hi1 : (i 1).val < 128 := (i 1).isLt
    have hN : cfg0.N = 32 := N_0
    obtain ⟨t, ht⟩ : ∃ t : Fin cfg0.N, t.val = (i 0).val / 2048 := ⟨⟨(i 0).val / 2048, by rw [hN]; omega⟩, rfl⟩
    obtain ⟨-, -, -, -, -, -, -, -, e8, e9⟩ := idx_facts t
    refine ⟨t, flush0_4 t, ?_⟩
    rw [mem_blk]
    intro a
    match a with
    | ⟨0, _⟩ => show win0_4.index t (0 : Fin 2) * 2048 ≤ (i 0).val ∧ (i 0).val < win0_4.index t (0 : Fin 2) * 2048 + 2048; rw [e8, ht]; omega
    | ⟨1, _⟩ => show win0_4.index t (1 : Fin 2) * 128 ≤ (i 1).val ∧ (i 1).val < win0_4.index t (1 : Fin 2) * 128 + 128; rw [e9]; omega)

/-! ## The closing reshape, and the run -/

/-- The program's result array: the mixture, entry by entry. -/
theorem tail_eq (c : Dev nD) :
    Pipeline.afterTail₀ cfgs (dats m) 0 (V0 m) [hostOps1] c main_v7 = moeArray (a0 m c) (a1 m c) (a2 m c) (a3 m c) := by
  have hT : Pipeline.afterTail₀ cfgs (dats m) 0 (V0 m) [hostOps1] c main_v7
      = shapeCast S32x2048x128 (G m c) shapeCasts_S65536x128_S32x2048x128 := by
    unfold Pipeline.afterTail₀
    show StableHlo.after hostOps1 _ (Proc.devRef .tc main_v7) = _
    after_results
    have hw := (Pipeline.withArrays_arr spec0 launch0.win.arr_inj c (V0 m c) (fun w => (dats m 0 c).arrAt w cfg0.N) 4).trans (final m c)
    show (fun i => shapeCast S32x2048x128 (Pipeline.withArrays spec0 c (V0 m c) (fun w => (dats m 0 c).arrAt w cfg0.N) (Proc.devRef .tc (Pipeline.arrRef spec0 4))) shapeCasts_S65536x128_S32x2048x128 i) = _
    rw [hw]
  rw [hT]
  funext i
  obtain ⟨b, s, e, rfl⟩ : ∃ (b : Fin 32) (s : Fin 2048) (e : Fin 128), i = ix3 b s e := ⟨i 0, i 1, i 2, eq_ix3 i⟩
  let n : Fin 65536 := ⟨b.val * 2048 + s.val, by have := b.isLt; have := s.isLt; omega⟩
  refine (shapeCast_apply (G m c) shapeCasts_S65536x128_S32x2048x128 (ix3 b s e) (ix2 n e) ?_).trans ?_
  · rw [Shape.rowMajor_val_three, Shape.rowMajor_val_two]
    show (b.val * 2048 + s.val) * 128 + e.val = (b.val * 2048 + s.val) * 128 + e.val
    rfl
  · rw [G_apply, moeArray_apply]
    have h0 : (fun d => A0 m c (ix2 n d)) = fun d => a0 m c (ix3 b s d) := funext fun d => A0_apply m c b s d n rfl
    have h1 : wOf (A3 m c) = fun t e d => a1 m c (ix3 t e d) := funext fun u => funext fun o => funext fun d => A3_apply m c u o d
    have h2 : bOf (A4 m c) = fun t e => a2 m c (ix2 t e) := funext fun u => funext fun o => A4_apply m c u o
    have h3 : pOf (A5 m c) = fun t d => a3 m c (ix3 t (0 : Fin 1) d) := funext fun u => funext fun d => A5_apply m c u d
    exact congrFun (congr (congr (congr (congrArg moeRow h0) h1) h2) h3) e

/-- THE RUN, READ: every weakly fair execution ends with the result array at the mixture of the argument arrays, and
    the argument arrays unchanged. -/
theorem run : θ_run defs (onTc (τ := τ) (main (F := Ideal))) ⟨m, fun _ => 0, ρ⟩ fun r => ∀ c : Dev nD,
      r.2.mem ((c.tc : Thread nD τ).loc main_v7) = moeArray (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Hand

end
-- ==== Proof.RefRow.lean ====
/-
  What the reference computes at entry (b, s, e) of its result, at the ideal values: the gated mixture of the eight
  experts on row (b, s) of the input, plus that row's own entry e.

  The reference carries the expert index t as a leading axis of length 8 and keeps every reduced axis as a unit
  axis; read at an index, each of its stages is a stage of the row computation:
  * the cosines: entry (t, b, s, 0) is the cosine of row (b, s) with prototype t — the sum of products over d divided by
    the product of the two norms, each zero plus a sum of squares under a square root;
  * their maximum over t, taken once more against minus infinity;
  * the shifted exponentials, their sum over t, the quotient;
  * the experts: entry (t, b, s, e) is the sum over d of W(t, e, d) · x(b, s, d), plus the bias (t, e) — the factors
    in the other order than the row computation writes them, which the product's commutativity mends;
  * the mixture: zero plus the sum over t of weight times expert, plus the input's entry.
-/
import proofs.«107700_j2757369004744_2_alg».proof.Proof.Gen.ReferenceIdeal.Read
import proofs.«107700_j2757369004744_2_alg».proof.Proof.MoeRow
import Idealize.ShloMosaic.Lib.ValueIdx
import Idealize.ShloMosaic.PureOps.Reduce

noncomputable section

namespace Cert.ReferenceIdeal.Hand

open Cert.ReferenceIdeal Cert.ReferenceIdeal.Gen Cert.ReferenceIdeal.Read Idealize.ShloMosaic Idealize.ShloMosaic.ValueIdx Cert.Moe

/-- Row (b, s) of the input. -/
abbrev rowAt (x0 : (⟨S32x2048x128, .f32⟩ : BufTy).Contents (Elt Ideal)) (b : Fin 32) (s : Fin 2048) : Fin 128 → EReal := fun d => x0 (ix3 b s d)
/-- The weights as expert, output, input. -/
abbrev wAt (x1 : (⟨S8x128x128, .f32⟩ : BufTy).Contents (Elt Ideal)) : Fin 8 → Fin 128 → Fin 128 → EReal := fun t e d => x1 (ix3 t e d)
/-- The biases as expert, output. -/
abbrev bAt (x2 : (⟨S8x128, .f32⟩ : BufTy).Contents (Elt Ideal)) : Fin 8 → Fin 128 → EReal := fun t e => x2 (ix2 t e)
/-- The prototypes as expert, input. -/
abbrev pAt (x3 : (⟨S8x1x128, .f32⟩ : BufTy).Contents (Elt Ideal)) : Fin 8 → Fin 128 → EReal := fun t d => x3 (ix3 t (0 : Fin 1) d)

/-- The cosines. -/
theorem ref_cos (x0 : (⟨S32x2048x128, .f32⟩ : BufTy).Contents (Elt Ideal)) (x3 : (⟨S8x1x128, .f32⟩ : BufTy).Contents (Elt Ideal)) (t : Fin 8) (b : Fin 32) (s : Fin 2048) (u : Fin 1) :
    val_main_v19 (F := Ideal) x0 x3 (ix4 t b s u) = cosine (rowAt x0 b s) (pAt x3) t := by
  simp only [val_main_v19_apply, val_main_v15_apply, val_main_v14_apply, val_main_v13_apply, val_main_v11_apply, val_main_v9_apply,
    val_main_v12_apply, val_main_v10_apply, val_main_v18_apply, val_main_v16_apply, val_main_v6_apply, val_main_v5_apply,
    val_main_call0_v2_apply, val_main_call0_v1_apply, val_main_call0_v0_apply, val_main_v17_apply, val_main_v8_apply, val_main_v7_apply,
    val_main_call1_v2_apply, val_main_call1_v1_apply, val_main_call1_v0_apply, val_main_cst_apply, val_main_call0_cst_apply, val_main_call1_cst_apply]
  have i1 : ∀ k : Fin 128, idx_main_v9 (idx_main_v11 (idx_main_v14 (idx_main_v15 (ix4 t b s u)) k)) = ix3 b s k :=
    fun k => funext fun a => Fin.ext (by match a with | ⟨0, _⟩ => rfl | ⟨1, _⟩ => rfl | ⟨2, _⟩ => rfl)
  have i2 : ∀ k : Fin 128, idx_main_v10 (idx_main_v12 (idx_main_v14 (idx_main_v15 (ix4 t b s u)) k)) = ix3 t (0 : Fin 1) k :=
    fun k => funext fun a => Fin.ext (by match a with | ⟨0, _⟩ => rfl | ⟨1, _⟩ => rfl | ⟨2, _⟩ => rfl)
  have i3 : ∀ k : Fin 128, idx_main_call0_v1 (idx_main_call0_v2 (idx_main_v6 (idx_main_v16 (ix4 t b s u)))) k = ix3 b s k :=
    fun k => funext fun a => Fin.ext (by match a with | ⟨0, _⟩ => rfl | ⟨1, _⟩ => rfl | ⟨2, _⟩ => rfl)
  have i4 : ∀ k : Fin 128, idx_main_call1_v1 (idx_main_call1_v2 (idx_main_v8 (idx_main_v17 (ix4 t b s u)))) k = ix3 t (0 : Fin 1) k :=
    fun k => funext fun a => Fin.ext (by match a with | ⟨0, _⟩ => rfl | ⟨1, _⟩ => rfl | ⟨2, _⟩ => rfl)
  simp only [i1, i2, i3, i4, Ideal.hostDivf_def, Ideal.mulf_def, Ideal.hostUnary_sqrt_def, Ideal.ofBits_def, Ideal.ofBits_zero_f32, zero_add]
  rfl

/-- Their maximum over the experts. -/
theorem ref_max (x0 : (⟨S32x2048x128, .f32⟩ : BufTy).Contents (Elt Ideal)) (x3 : (⟨S8x1x128, .f32⟩ : BufTy).Contents (Elt Ideal)) (b : Fin 32) (s : Fin 2048) (u : Fin 1) :
    val_main_v22 (F := Ideal) x0 x3 (ix3 b s u) = rowMax (rowAt x0 b s) (pAt x3) := by
  have hred : S8x32x2048x1.Reduces [0] S32x2048x1 := by decide
  have h20 : val_main_v20 (F := Ideal) x0 x3 (ix3 b s u) = (Finset.univ : Finset (Fin 8)).fold max negInf (cosine (rowAt x0 b s) (pAt x3)) := by
    unfold val_main_v20
    refine (Host.reduce_eq_fold_single (FloatOps.maximumf (F := Ideal) (φ := .f32)) (val_main_v19 (F := Ideal) x0 x3 : S8x32x2048x1.Idx → Ideal .f32) (val_main_cst_0 (F := Ideal) : S_.Idx → Ideal .f32) reducesTo_S8x32x2048x1_S32x2048x1_d0 hred h_S_ (ix3 b s u)).trans ?_
    show (Finset.univ : Finset (Fin 8)).fold max negInf (fun k => val_main_v19 (F := Ideal) x0 x3 (hred.lift (ix3 b s u) k)) = _
    refine congrArg (fun f => (Finset.univ : Finset (Fin 8)).fold max negInf f) (funext fun k => ?_)
    have e : hred.lift (ix3 b s u) k = ix4 k b s u := funext fun a => Fin.ext (by match a with | ⟨0, _⟩ => rfl | ⟨1, _⟩ => rfl | ⟨2, _⟩ => rfl | ⟨3, _⟩ => rfl)
    rw [e]
    exact ref_cos x0 x3 k b s u
  rw [val_main_v22_apply, h20, val_main_v21_apply]
  exact max_fold_self negInf _

/-- The shifted exponentials. -/
theorem ref_expo (x0 : (⟨S32x2048x128, .f32⟩ : BufTy).Contents (Elt Ideal)) (x3 : (⟨S8x1x128, .f32⟩ : BufTy).Contents (Elt Ideal)) (t : Fin 8) (b : Fin 32) (s : Fin 2048) (u : Fin 1) :
    val_main_v26 (F := Ideal) x0 x3 (ix4 t b s u) = expo (rowAt x0 b s) (pAt x3) t := by
  rw [val_main_v26_apply, val_main_v25_apply, val_main_v24_apply, val_main_v23_apply]
  have i1 : idx_main_v23 (idx_main_v24 (ix4 t b s u)) = ix3 b s (0 : Fin 1) := funext fun a => Fin.ext (by match a with | ⟨0, _⟩ => rfl | ⟨1, _⟩ => rfl | ⟨2, _⟩ => rfl)
  rw [i1, ref_cos, ref_max]
  rfl

/-- The softmax weights. -/
theorem ref_gate (x0 : (⟨S32x2048x128, .f32⟩ : BufTy).Contents (Elt Ideal)) (x3 : (⟨S8x1x128, .f32⟩ : BufTy).Contents (Elt Ideal)) (t : Fin 8) (b : Fin 32) (s : Fin 2048) (u : Fin 1) :
    val_main_v30 (F := Ideal) x0 x3 (ix4 t b s u) = gate (rowAt x0 b s) (pAt x3) t := by
  rw [val_main_v30_apply, val_main_v29_apply, val_main_v28_apply, val_main_v27_apply, val_main_cst_2_apply]
  have i1 : ∀ k : Fin 8, idx_main_v27 (idx_main_v28 (idx_main_v29 (ix4 t b s u))) k = ix4 k b s (0 : Fin 1) :=
    fun k => funext fun a => Fin.ext (by match a with | ⟨0, _⟩ => rfl | ⟨1, _⟩ => rfl | ⟨2, _⟩ => rfl | ⟨3, _⟩ => rfl)
  simp only [i1, ref_expo, Ideal.hostDivf_def, Ideal.ofBits_def, Ideal.ofBits_zero_f32, zero_add]
  rfl

/-- The experts. -/
theorem ref_expert (x0 : (⟨S32x2048x128, .f32⟩ : BufTy).Contents (Elt Ideal)) (x1 : (⟨S8x128x128, .f32⟩ : BufTy).Contents (Elt Ideal)) (x2 : (⟨S8x128, .f32⟩ : BufTy).Contents (Elt Ideal)) (t : Fin 8) (b : Fin 32) (s : Fin 2048) (e : Fin 128) :
    val_main_v4 (F := Ideal) x0 x1 x2 (ix4 t b s e) = expert (rowAt x0 b s) (wAt x1) (bAt x2) t e := by
  rw [val_main_v4_apply, val_main_v1_apply, val_main_v0_apply, val_main_v3_apply, val_main_v2_apply]
  have i1 : ∀ k : Fin 128, lidx_main_v0 (idx_main_v1 (ix4 t b s e)) k = ix3 t e k := fun k => funext fun a => Fin.ext (by match a with | ⟨0, _⟩ => rfl | ⟨1, _⟩ => rfl | ⟨2, _⟩ => rfl)
  have i2 : ∀ k : Fin 128, ridx_main_v0 (idx_main_v1 (ix4 t b s e)) k = ix3 b s k := fun k => funext fun a => Fin.ext (by match a with | ⟨0, _⟩ => rfl | ⟨1, _⟩ => rfl | ⟨2, _⟩ => rfl)
  have i3 : idx_main_v2 (idx_main_v3 (ix4 t b s e)) = ix2 t e := funext fun a => Fin.ext (by match a with | ⟨0, _⟩ => rfl | ⟨1, _⟩ => rfl)
  simp only [i1, i2, i3, Ideal.addf_def]
  unfold expert
  exact congrArg (· + x2 (ix2 t e)) (Finset.sum_congr rfl fun k _ => mul_comm _ _)

/-- THE REFERENCE'S RESULT at (b, s, e): the gated mixture on row (b, s), at output `e`. -/
theorem ref_apply (x0 : (⟨S32x2048x128, .f32⟩ : BufTy).Contents (Elt Ideal)) (x1 : (⟨S8x128x128, .f32⟩ : BufTy).Contents (Elt Ideal)) (x2 : (⟨S8x128, .f32⟩ : BufTy).Contents (Elt Ideal)) (x3 : (⟨S8x1x128, .f32⟩ : BufTy).Contents (Elt Ideal)) (b : Fin 32) (s : Fin 2048) (e : Fin 128) :
    val_main_v34 (F := Ideal) x0 x1 x2 x3 (ix3 b s e) = moeRow (rowAt x0 b s) (wAt x1) (bAt x2) (pAt x3) e := by
  rw [val_main_v34_apply, val_main_v33_apply, val_main_cst_3_apply]
  have i1 : ∀ k : Fin 8, idx_main_v33 (ix3 b s e) k = ix4 k b s e := fun k => funext fun a => Fin.ext (by match a with | ⟨0, _⟩ => rfl | ⟨1, _⟩ => rfl | ⟨2, _⟩ => rfl | ⟨3, _⟩ => rfl)
  have i2 : ∀ k : Fin 8, idx_main_v31 (ix4 k b s e) = ix4 k b s (0 : Fin 1) := fun k => funext fun a => Fin.ext (by match a with | ⟨0, _⟩ => rfl | ⟨1, _⟩ => rfl | ⟨2, _⟩ => rfl | ⟨3, _⟩ => rfl)
  simp only [i1, val_main_v32_apply, val_main_v31_apply, i2, ref_gate, ref_expert, Ideal.addf_def, Ideal.mulf_def, Ideal.ofBits_def, Ideal.ofBits_zero_f32, zero_add]
  rfl

/-- The reference's result array is the mixture, entry by entry. -/
theorem ref_eq (x0 : (⟨S32x2048x128, .f32⟩ : BufTy).Contents (Elt Ideal)) (x1 : (⟨S8x128x128, .f32⟩ : BufTy).Contents (Elt Ideal)) (x2 : (⟨S8x128, .f32⟩ : BufTy).Contents (Elt Ideal)) (x3 : (⟨S8x1x128, .f32⟩ : BufTy).Contents (Elt Ideal)) :
    val_main_v34 (F := Ideal) x0 x1 x2 x3 = moeArray x0 x1 x2 x3 := by
  funext i
  obtain ⟨b, s, e, rfl⟩ : ∃ (b : Fin 32) (s : Fin 2048) (e : Fin 128), i = ix3 b s e := ⟨i 0, i 1, i 2, eq_ix3 i⟩
  exact (ref_apply x0 x1 x2 x3 b s e).trans (moeArray_apply x0 x1 x2 x3 b s e).symm

end Cert.ReferenceIdeal.Hand

end
-- ==== Proof.lean ====
/-
  The kernel program and its reference compute one function over the extended reals: a mixture of eight linear
  experts, gated by the softmax of the cosine similarities between each row of the input and eight prototype
  vectors, plus the input itself.

  For input x (32 × 2048 rows of 128), weights W (8 × 128 × 128), biases (8 × 128) and prototypes p (8 × 1 × 128), entry
  (b, s, e) of the result is
      (sum over t of gate t · ((sum over d of x(b,s,d) · W(t,e,d)) + bias(t,e))) + x(b,s,e),
  gate t = exp (cos t − max cos) / (sum over u of exp (cos u − max cos)),  cos t = <x(b,s), p t> / (|x(b,s)| · |p t|).
  The kernel works on the input as 65536 rows, 2048 rows per grid point, against the weights transposed and fused into
  one 128 × 1024 matrix; the reference carries the expert index as a leading axis. At the ideal values a change of float
  format is the identity, each matrix product and each reduction is its plain sum, so the two differ only in how sums
  are arranged, in the order of two factors, in zeros added, and in one maximum taken twice — none of which changes an
  extended real. No property of the inputs is used.

  The three frames: the kernel program's two are generated whole; the reference's is its generated run with the result
  dropped. The idealized kernel program is the kernel program's own text read at the ideal values, so nothing is owed
  for the idealization.
-/
import proofs.«107700_j2757369004744_2_alg».proof.Defs
import proofs.«107700_j2757369004744_2_alg».proof.Proof.Gen.Kernel
import proofs.«107700_j2757369004744_2_alg».proof.Proof.Gen.Kernel.Skeleton
import proofs.«107700_j2757369004744_2_alg».proof.Proof.Gen.Kernel.Launch
import proofs.«107700_j2757369004744_2_alg».proof.Proof.Gen.Kernel.Points
import proofs.«107700_j2757369004744_2_alg».proof.Proof.Gen.Kernel.Frame
import proofs.«107700_j2757369004744_2_alg».proof.Proof.Gen.KernelIdeal
import proofs.«107700_j2757369004744_2_alg».proof.Proof.Gen.KernelIdeal.Skeleton
import proofs.«107700_j2757369004744_2_alg».proof.Proof.Gen.KernelIdeal.Launch
import proofs.«107700_j2757369004744_2_alg».proof.Proof.Gen.KernelIdeal.Points
import proofs.«107700_j2757369004744_2_alg».proof.Proof.Gen.KernelIdeal.Frame
import proofs.«107700_j2757369004744_2_alg».proof.Proof.Gen.ReferenceIdeal
import proofs.«107700_j2757369004744_2_alg».proof.Proof.Gen.ReferenceIdeal.Run
import proofs.«107700_j2757369004744_2_alg».proof.Proof.Gen.ReferenceIdeal.Read
import proofs.«107700_j2757369004744_2_alg».proof.Proof.Gen.Pre_finite_inputs
import proofs.«107700_j2757369004744_2_alg».proof.Proof.KernelValue
import proofs.«107700_j2757369004744_2_alg».proof.Proof.RefRow
import Idealize.ShloMosaic.Adequacy
import Idealize.ShloMosaic.Init

noncomputable section

namespace Cert.Proof

open Idealize.ShloMosaic Idealize.SL.Sem

/-- The kernel program terminates without a fault and leaves its arguments as they were. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the mixture of the argument arrays as their result, entry by entry. -/
theorem algebraic : Cert.algebraic_KernelIdeal_ReferenceIdeal := by
  intro m ρ m' ρ' _ hagree
  refine ⟨fun c => Cert.Moe.moeArray (Cert.KernelIdeal.Hand.a0 m c) (Cert.KernelIdeal.Hand.a1 m c) (Cert.KernelIdeal.Hand.a2 m c) (Cert.KernelIdeal.Hand.a3 m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.Hand.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
